-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) (main_arg1 : IVec S512 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Kernel.lean ====
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S64x1x1 : Shape := ⟨3, ![64, 1, 1]⟩
abbrev S1x1x1 : Shape := ⟨3, ![1, 1, 1]⟩
abbrev S8x512 : Shape := ⟨2, ![8, 512]⟩
abbrev S8x1 : Shape := ⟨2, ![8, 1]⟩
abbrev S8x1x512 : Shape := ⟨3, ![8, 1, 512]⟩
abbrev S8x512x1 : Shape := ⟨3, ![8, 512, 1]⟩
abbrev S8x512x512 : Shape := ⟨3, ![8, 512, 512]⟩
abbrev S8x1x1 : Shape := ⟨3, ![8, 1, 1]⟩
abbrev S1x1 : Shape := ⟨2, ![1, 1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S512x1, .i32⟩
  | .hbm, ⟨3, _⟩ => ⟨S1x512, .i32⟩
  | .hbm, ⟨4, _⟩ => ⟨S512x512, .f32⟩
  | .hbm, ⟨5, _⟩ => ⟨S64x1x1, .f32⟩
  | .hbm, ⟨6, _⟩ => ⟨S_, .f32⟩
  | .hbm, ⟨7, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x1, .i32⟩
  | .local _ .vmem, ⟨4, _⟩ => ⟨S1x512, .i32⟩
  | .local _ .vmem, ⟨5, _⟩ => ⟨S1x1x1, .f32⟩
  | .local _ .vmem, ⟨6, _⟩ => ⟨S1x1x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg3_1 : Ref sig .tc := ⟨.vmem, 6, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev cc1_sem3_0 : DmaSem sig := 5
abbrev cc1_sem3_1 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def k1_mult1 (i : grid1.Coords) : BitVec 32 :=
  let arg0 : BitVec 32 := BitVec.ofNat 32 (i 0).val
  let c8_i32 : BitVec 32 := 8#32
  let v0 : BitVec 32 := Scalar.muli arg0 c8_i32
  v0
def k1_off1 (i : grid1.Coords) : Fin 2 → Nat :=
  let arg0 : BitVec 32 := BitVec.ofNat 32 (i 0).val
  let c8_i32 : BitVec 32 := 8#32
  let v0 : BitVec 32 := Scalar.muli arg0 c8_i32
  let v1 : BitVec 32 := v0
  let v2 : Index := Scalar.indexCast v1
  let c0 : Index := 0#32
  ![v2.toNat, 0]
def k1_off2 (i : grid1.Coords) : Fin 2 → Nat :=
  let arg0 : BitVec 32 := BitVec.ofNat 32 (i 0).val
  let c8_i32 : BitVec 32 := 8#32
  let v0 : BitVec 32 := Scalar.muli arg0 c8_i32
  let v1 : BitVec 32 := v0
  let v5 : Index := Scalar.indexCast v1
  let c0_0 : Index := 0#32
  ![v5.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S512_S512x1 : S512.ShapeCasts S512x1
  shapeCasts_S512_S1x512 : S512.ShapeCasts S1x512
  inb_S512x512_S512x512_0_0 : ∀ a, (![0, 0] : Fin 2 → Nat) a + S512x512.size a ≤ S512x512.size a
  h_S512x512 : 0 < S512x512.numel
  reduces_S512x512_S512 : S512x512.Reduces [1] S512
  broadcasts_S512x1_S512x512 : S512x1.Broadcasts S512x512
  bitsLt_bf16_f32 : FTy.bits .bf16 < FTy.bits .f32
  transposes_S512x512_p1_0_S512x512 : S512x512.Transposes [1, 0] S512x512
  h_S8x512 : 0 < S8x512.numel
  shapeCasts_S8x512_S8x512 : S8x512.ShapeCasts S8x512
  h_S8x1 : 0 < S8x1.numel
  shapeCasts_S8x1_S8x1 : S8x1.ShapeCasts S8x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S8x1_d0_w32 : S8x1.Iotas .tc 32 [0]
  iota_S1x512_d1_w32 : S1x512.Iotas .tc 32 [1]
  broadcasts_S8x1_S8x512 : S8x1.Broadcasts S8x512
  broadcasts_S1x512_S8x512 : S1x512.Broadcasts S8x512
  natLt_1_32 : 1 < 32
  shapeCasts_S8x512_S8x1x512 : S8x512.ShapeCasts S8x1x512
  shapeCasts_S8x512_S8x512x1 : S8x512.ShapeCasts S8x512x1
  broadcasts_S8x1x512_S8x512x512 : S8x1x512.Broadcasts S8x512x512
  broadcasts_S8x512x1_S8x512x512 : S8x512x1.Broadcasts S8x512x512
  reduces_S8x512x512_S8x512 : S8x512x512.Reduces [2] S8x512
  reduces_S8x512x1_S8x1 : S8x512x1.Reduces [1] S8x1
  shapeCasts_S8x1_S8x1x1 : S8x1.ShapeCasts S8x1x1
  reduces_S8x1x1_S1x1 : S8x1x1.Reduces [0] S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S64x1x1_S_d0_1_2 : S64x1x1.ReducesTo [0, 1, 2] S_
  h_S_ : 0 < S_.numel
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hrank1 : 0 < grid1.rank
  k1_mult1_dvd : ∀ i : grid1.Coords, 8 ∣ (k1_mult1 i).toNat
  k1_off1_inb : ∀ i : grid1.Coords, ∀ a, (k1_off1 i) a + S8x512.size a ≤ S512x512.size a
  k1_off2_inb : ∀ i : grid1.Coords, ∀ a, (k1_off2 i) a + S8x1.size a ≤ S512x1.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S512x512.size a
  hwx1_0 : ∀ i : grid1.Coords, EltTy.bits .f32 = 32 ∨ (Rect.block (s := S512x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S512x1.size a
  hwx1_1 : ∀ i : grid1.Coords, EltTy.bits .i32 = 32 ∨ (Rect.block (s := S512x1) S512x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .i32 = 32 ∨ (Rect.block (s := S1x512) S1x512.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S64x1x1.size a
  hwx1_3 : ∀ i : grid1.Coords, EltTy.bits .f32 = 32 ∨ (Rect.block (s := S64x1x1) S1x1x1.size (cc1_transform_3 i) (hinb1_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S512x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x1x512 : Shape := ⟨3, ![512, 1, 512]⟩
abbrev S512x512x1 : Shape := ⟨3, ![512, 512, 1]⟩
abbrev S512x512x512 : Shape := ⟨3, ![512, 512, 512]⟩

abbrev nBuf : Space → Nat
  | .hbm => 50
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S512x512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S512x1, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512, .i32⟩
  | .hbm, ⟨15, _⟩ => ⟨S1x512, .i32⟩
  | .hbm, ⟨16, _⟩ => ⟨S512x1, .i32⟩
  | .hbm, ⟨17, _⟩ => ⟨S512x512, .i32⟩
  | .hbm, ⟨18, _⟩ => ⟨S512x512, .i32⟩
  | .hbm, ⟨19, _⟩ => ⟨S512x512, .i1⟩
  | .hbm, ⟨20, _⟩ => ⟨S512x1, .i32⟩
  | .hbm, ⟨21, _⟩ => ⟨S1x512, .i32⟩
  | .hbm, ⟨22, _⟩ => ⟨S512x512, .i32⟩
  | .hbm, ⟨23, _⟩ => ⟨S512x512, .i32⟩
  | .hbm, ⟨24, _⟩ => ⟨S512x512, .i1⟩
  | .hbm, ⟨25, _⟩ => ⟨S512x512, .i1⟩
  | .hbm, ⟨26, _⟩ => ⟨S512x512, .i1⟩
  | .hbm, ⟨27, _⟩ => ⟨S512x512, .i1⟩
  | .hbm, ⟨28, _⟩ => ⟨S512x1x512, .f32⟩
  | .hbm, ⟨29, _⟩ => ⟨S512x512x1, .f32⟩
  | .hbm, ⟨30, _⟩ => ⟨S512x512x512, .f32⟩
  | .hbm, ⟨31, _⟩ => ⟨S512x512x512, .f32⟩
  | .hbm, ⟨32, _⟩ => ⟨S512x512x512, .f32⟩
  | .hbm, ⟨33, _⟩ => ⟨S_, .f32⟩
  | .hbm, ⟨34, _⟩ => ⟨S512x512x512, .f32⟩
  | .hbm, ⟨35, _⟩ => ⟨S512x512x512, .f32⟩
  | .hbm, ⟨36, _⟩ => ⟨S_, .f32⟩
  | .hbm, ⟨37, _⟩ => ⟨S512x512x512, .f32⟩
  | .hbm, ⟨38, _⟩ => ⟨S512x512x512, .f32⟩
  | .hbm, ⟨39, _⟩ => ⟨S512x512x1, .i1⟩
  | .hbm, ⟨40, _⟩ => ⟨S512x1x512, .i1⟩
  | .hbm, ⟨41, _⟩ => ⟨S512x512x512, .i1⟩
  | .hbm, ⟨42, _⟩ => ⟨S512x512x512, .i1⟩
  | .hbm, ⟨43, _⟩ => ⟨S512x512x512, .i1⟩
  | .hbm, ⟨44, _⟩ => ⟨S_, .f32⟩
  | .hbm, ⟨45, _⟩ => ⟨S_, .f32⟩
  | .hbm, ⟨46, _⟩ => ⟨S512x512x512, .f32⟩
  | .hbm, ⟨47, _⟩ => ⟨S512x512x512, .f32⟩
  | .hbm, ⟨48, _⟩ => ⟨S_, .f32⟩
  | .hbm, ⟨49, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_v27 : Ref sig .tc := ⟨.hbm, 34, rfl⟩
abbrev main_v28 : Ref sig .tc := ⟨.hbm, 35, rfl⟩
abbrev main_call1_cst : Ref sig .tc := ⟨.hbm, 36, rfl⟩
abbrev main_call1_v0 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_call2_v0 : Ref sig .tc := ⟨.hbm, 45, rfl⟩
abbrev main_call2_v1 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  transposes_S512x512_S512x512_1_0 : S512x512.Transposes [1, 0] S512x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512x512_S512x1x512_0_2 : S512x512.BroadcastsInDim S512x1x512 (![0, 2] : Fin 2 → Fin S512x1x512.rank)
  bcast_S512x512_S512x512x1_0_1 : S512x512.BroadcastsInDim S512x512x1 (![0, 1] : Fin 2 → Fin S512x512x1.rank)
  bcast_S512x1x512_S512x512x512_0_1_2 : S512x1x512.BroadcastsInDim S512x512x512 (![0, 1, 2] : Fin 3 → Fin S512x512x512.rank)
  bcast_S512x512x1_S512x512x512_0_1_2 : S512x512x1.BroadcastsInDim S512x512x512 (![0, 1, 2] : Fin 3 → Fin S512x512x512.rank)
  bcast_S_S512x512x512 : S_.BroadcastsInDim S512x512x512 (![] : Fin 0 → Fin S512x512x512.rank)
  reducesTo_S512x512x512_S_d0_1_2 : S512x512x512.ReducesTo [0, 1, 2] S_
  dot_S512x512_S512x512_S512x512_1_0_0_1_n_n_wf : DotDims.WF S512x512 S512x512 S512x512 [1] [0] [0] [1] [] []

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

class Facts : Prop extends Facts₀ where

variable [Facts]
-- ==== Proof.RunValue.lean ====
/-
  The idealized kernel's run with its result named.

  The program is two kernel launches between two stretches of host operations. Its run is followed segment by segment,
  each segment entered from the buffer contents the one before it left: the class labels reshaped to a column and a row;
  the cosine matrix written by the first launch; the sixty-four block sums written by the second; their total. Every
  weakly fair execution terminates without a fault with the result buffer at the contents the last stretch leaves and
  the two argument arrays as launched.
-/
import proofs.«146865_j10325101379760_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the result buffer ends at the contents the last host stretch leaves (the fold of the
    segments from the launch memory, read at the result), and the arguments end as launched. -/
theorem run_value : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c)⟩)

end Cert.KernelIdeal.RunValue

end
-- ==== Proof.CosArray.lean ====
/-
  The cosine matrix after the first launch.

  The first launch has one grid point; its input window holds the whole embedding matrix and its output window the whole
  512 × 512 result, so what the point writes back is the body's one stored value — the matrix of normalised inner
  products of the rows — of the embeddings as the launch finds them, and that one block covers the whole array.
-/
import proofs.«146865_j10325101379760_2_alg».proof.Proof.Gen.KernelIdeal.Frame
import Idealize.ShloMosaic.Lib.Pipeline.Value

set_option maxRecDepth 16384

noncomputable section

namespace Cert.KernelIdeal.CosArray

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl

/-- Both windows of the first launch sit at block index zero on both axes, at its one point. -/
theorem idx0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The input window's block is the whole embedding matrix. -/
theorem iblk0_whole (c : Dev nD) (t : Fin cfg0.N) : iblk0 V c 0 t = V c main_arg0 := by
  funext y
  show V c main_arg0 (((cfg0.win 0).blk t).view.emb y) = V c main_arg0 y
  refine congrArg _ (funext fun a => Fin.ext ?_)
  obtain ⟨e0, e1, -, -⟩ := idx0 t
  match a with
  | ⟨0, _⟩ => show win0_0.index t (0 : Fin 2) * 512 + 1 * (y 0).val = (y 0).val; omega
  | ⟨1, _⟩ => show win0_0.index t (1 : Fin 2) * 512 + 1 * (y 1).val = (y 1).val; omega

/-- What the one point writes back is the whole block of the body's value of the embeddings. -/
theorem flushed0 (c : Dev nD) (t : Fin cfg0.N) :
    (dat0 V c).flushed 1 t = ((cfg0.win 1).blk t).view.read (Elt F) (k0_pay1 (V c main_arg0)) := by
  show (cfg0.win 1).cut (grid0.coords t) ((dat0 V c).after 1 t) = _
  rw [after0_1]
  unfold out0_1
  rw [View.canon_unit_zero hz2]
  simp only [View.ld_unit_zero (S := S512x512) hz2]
  rw [iblk0_whole]
  funext y
  show k0_pay1 (V c main_arg0) y = k0_pay1 (V c main_arg0) (((cfg0.win 1).blk t).view.emb y)
  refine congrArg _ (funext fun a => Fin.ext ?_)
  obtain ⟨-, -, e2, e3⟩ := idx0 t
  match a with
  | ⟨0, _⟩ => show (y 0).val = win0_1.index t (0 : Fin 2) * 512 + 1 * (y 0).val; omega
  | ⟨1, _⟩ => show (y 1).val = win0_1.index t (1 : Fin 2) * 512 + 1 * (y 1).val; omega

theorem mem_blk0 (t : Fin cfg0.N) (i : S512x512.Idx) :
    i ∈ ((cfg0.win 1).blk t).view.set ↔ ∀ a : Fin 2, win0_1.index t a * S512x512.size a ≤ (i a).val ∧ (i a).val < win0_1.index t a * S512x512.size a + S512x512.size a := by
  show i ∈ ((View.whole main_v2).slice (win0_1.rect t)).set ↔ _
  rw [View.set_slice_whole, Rect.mem_set_unit]
  exact Iff.rfl

/-- The one block covers the array. -/
theorem cover0 (i : S512x512.Idx) : ∃ t : Fin cfg0.N, (cfg0.win 1).flush t = true ∧ i ∈ ((cfg0.win 1).blk t).view.set := by
  refine ⟨t0_0, flush0_1 _, ?_⟩
  rw [mem_blk0]
  obtain ⟨-, -, e2, e3⟩ := idx0 t0_0
  intro a
  match a with
  | ⟨0, _⟩ => show win0_1.index t0_0 (0 : Fin 2) * 512 ≤ (i 0).val ∧ (i 0).val < win0_1.index t0_0 (0 : Fin 2) * 512 + 512; have hi : (i 0).val < 512 := (i 0).isLt; omega
  | ⟨1, _⟩ => show win0_1.index t0_0 (1 : Fin 2) * 512 ≤ (i 1).val ∧ (i 1).val < win0_1.index t0_0 (1 : Fin 2) * 512 + 512; have hi : (i 1).val < 512 := (i 1).isLt; omega

/-- After the first launch the result array holds the body's value of the embeddings. -/
theorem cos_array (c : Dev nD) : (dat0 V c).arrAt 1 cfg0.N = k0_pay1 (V c main_arg0) :=
  (dat0 V c).arrAt_eq_of_cover 1 _ (fun t _ => flushed0 V c t) cover0

end Cert.KernelIdeal.CosArray

end
-- ==== Proof.BlockArray.lean ====
/-
  The block sums after the second launch.

  The second launch has sixty-four grid points. At point `t` its body loads rows `8 t … 8 t + 7` of the cosine matrix
  and of the column of class labels, and the whole row of class labels, and stores one number, the block's sum, which the
  point writes back to entry `t` of the result array [64, 1, 1]. The three input windows hold their whole arrays at every
  point. So after the launch entry `t` of the result array is the body's value of those rows, and the sixty-four one-entry
  blocks cover the array.
-/
import proofs.«146865_j10325101379760_2_alg».proof.Proof.Gen.KernelIdeal.Frame
import Idealize.ShloMosaic.Lib.Pipeline.Value
import Idealize.ShloMosaic.Lib.ValueIdx

set_option maxRecDepth 16384

noncomputable section

namespace Cert.KernelIdeal.BlockArray

open Cert.KernelIdeal Cert.KernelIdeal.Gen Idealize.ShloMosaic Idealize.ShloMosaic.TcCoe Idealize.SL.Sem
open Idealize.ShloMosaic.Pipeline (Dat)
open Idealize.ShloMosaic.Tactic Idealize.ShloMosaic.ValueIdx

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The rows of the cosine matrix the body loads at a point, and the rows of the label column. -/
abbrev rowsRect (i : grid1.Coords) : Rect S512x512 := Rect.unit (s := S512x512) (k1_off1 i) S8x512.size (k1_off1_inb i)
abbrev colRect (i : grid1.Coords) : Rect S512x1 := Rect.unit (s := S512x1) (k1_off2 i) S8x1.size (k1_off2_inb i)

/-- What the body leaves in the output's staging buffer: its one stored value of the rows it loads. -/
theorem out_piece (c : Dev nD) (i : grid1.Coords) (a1 : Memref sig .tc .vmem S512x512 .f32) (h1 : a1.IsWhole)
    (a2 : Memref sig .tc .vmem S512x1 .i32) (h2 : a2.IsWhole) (a3 : Memref sig .tc .vmem S1x512 .i32) (h3 : a3.IsWhole)
    (a4 : Memref sig .tc .vmem S1x1x1 .f32) (h4 : a4.IsWhole)
    (x0 : Vec F S512x512 .f32) (x1 : Vec F S512x1 .i32) (x2 : Vec F S1x512 .i32) :
    out1_A_3 c i a1 h1 a2 h2 a3 h3 a4 h4 x0 x1 x2
      = k1_pay1 i (View.ld x0 (rowsRect i)) (View.ld x1 (colRect i)) x2 := by
  unfold out1_A_3
  rw [View.read_writes_eq_canon _ _ _ (cover1_A_3 c i a1 h1 a2 h2 a3 h3 a4 h4 x0 x1 x2)]
  unfold kernelRun1_A
  dsimp only
  sl_unfold_words
  rw [View.canon_unit_zero hz3]
  simp only [View.readAt_eq_ld, h1.read_unread, h2.read_unread, h3.read_unread, View.ld_unit_zero (S := S1x512) hz2]
  rfl

/-- The printed index maps and load offsets, decided once over the sixty-four points: the input windows sit at block
    zero, the output window at block `t`, and the loads start at row `8 t`. -/
theorem idx1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

theorem off1 : ∀ t : Fin cfg1.N, k1_off1 (grid1.coords t) (0 : Fin 2) = t.val * 8 ∧ k1_off1 (grid1.coords t) (1 : Fin 2) = 0
    ∧ k1_off2 (grid1.coords t) (0 : Fin 2) = t.val * 8 ∧ k1_off2 (grid1.coords t) (1 : Fin 2) = 0
    ∧ ((grid1.coords t) 0).val = t.val :=
  (by decide +kernel : ∀ t : Fin grid1.N, _)

/-- Each input window's block is its whole array. -/
theorem iblk1_0 (c : Dev nD) (t : Fin cfg1.N) : iblk1 V c 0 t = V c main_v2 := by
  funext y
  show V c main_v2 (((cfg1.win 0).blk t).view.emb y) = V c main_v2 y
  refine congrArg _ (funext fun a => Fin.ext ?_)
  obtain ⟨e0, e1, -⟩ := idx1 t
  match a with
  | ⟨0, _⟩ => show win1_0.index t (0 : Fin 2) * 512 + 1 * (y 0).val = (y 0).val; omega
  | ⟨1, _⟩ => show win1_0.index t (1 : Fin 2) * 512 + 1 * (y 1).val = (y 1).val; omega

theorem iblk1_1 (c : Dev nD) (t : Fin cfg1.N) : iblk1 V c 1 t = V c main_v0 := by
  funext y
  show V c main_v0 (((cfg1.win 1).blk t).view.emb y) = V c main_v0 y
  refine congrArg _ (funext fun a => Fin.ext ?_)
  obtain ⟨-, -, e0, e1, -⟩ := idx1 t
  match a with
  | ⟨0, _⟩ => show win1_1.index t (0 : Fin 2) * 512 + 1 * (y 0).val = (y 0).val; omega
  | ⟨1, _⟩ => show win1_1.index t (1 : Fin 2) * 1 + 1 * (y 1).val = (y 1).val; omega

theorem iblk1_2 (c : Dev nD) (t : Fin cfg1.N) : iblk1 V c 2 t = V c main_v1 := by
  funext y
  show V c main_v1 (((cfg1.win 2).blk t).view.emb y) = V c main_v1 y
  refine congrArg _ (funext fun a => Fin.ext ?_)
  obtain ⟨-, -, -, -, e0, e1, -⟩ := idx1 t
  match a with
  | ⟨0, _⟩ => show win1_2.index t (0 : Fin 2) * 1 + 1 * (y 0).val = (y 0).val; omega
  | ⟨1, _⟩ => show win1_2.index t (1 : Fin 2) * 512 + 1 * (y 1).val = (y 1).val; omega

/-- The block's sum at point `t`, as the body computes it from the arrays the launch finds. -/
def blockVal (c : Dev nD) (t : Fin cfg1.N) : Vec F S1x1x1 .f32 :=
  k1_pay1 (grid1.coords t) (View.ld (V c main_v2) (rowsRect (grid1.coords t))) (View.ld (V c main_v0) (colRect (grid1.coords t)))
    (V c main_v1)

/-- The point whose block holds an entry of the result array. -/
def pointOf (i : S64x1x1.Idx) : Fin cfg1.N := ⟨(i 0).val, Nat.lt_of_lt_of_eq (show (i 0).val < 64 from (i 0).isLt) N_1.symm⟩

/-- The result array of the second launch: entry `t` is block `t`'s sum. -/
def sums (c : Dev nD) : S64x1x1.Idx → Elt F .f32 := fun i => blockVal V c (pointOf i) (ix3 (0 : Fin 1) (0 : Fin 1) (0 : Fin 1))

/-- What point `t` writes back is its one-entry block of `sums`. -/
theorem flushed3 (c : Dev nD) (t : Fin cfg1.N) :
    (dat1 V c).flushed 3 t = ((cfg1.win 3).blk t).view.read (Elt F) (sums V c) := by
  show (cfg1.win 3).cut (grid1.coords t) ((dat1 V c).after 3 t) = _
  rw [after1_3]
  unfold outsAt1
  rw [out_piece, iblk1_0, iblk1_1, iblk1_2]
  funext y
  show blockVal V c t y = blockVal V c (pointOf (((cfg1.win 3).blk t).view.emb y)) (ix3 (0 : Fin 1) (0 : Fin 1) (0 : Fin 1))
  obtain ⟨-, -, -, -, -, -, e0, e1, e2⟩ := idx1 t
  have hy0 : (y 0).val < 1 := (y 0).isLt
  have hy1 : (y 1).val < 1 := (y 1).isLt
  have hy2 : (y 2).val < 1 := (y 2).isLt
  have ht : pointOf (((cfg1.win 3).blk t).view.emb y) = t := Fin.ext (by
    show win1_3.index t (0 : Fin 3) * 1 + 1 * (y 0).val = t.val
    omega)
  have hy : y = ix3 (0 : Fin 1) (0 : Fin 1) (0 : Fin 1) := funext fun a => Fin.ext (by
    match a with
    | ⟨0, _⟩ => show (y 0).val = 0; omega
    | ⟨1, _⟩ => show (y 1).val = 0; omega
    | ⟨2, _⟩ => show (y 2).val = 0; omega)
  rw [ht, hy]

theorem mem_blk3 (t : Fin cfg1.N) (i : S64x1x1.Idx) :
    i ∈ ((cfg1.win 3).blk t).view.set ↔ ∀ a : Fin 3, win1_3.index t a * S1x1x1.size a ≤ (i a).val ∧ (i a).val < win1_3.index t a * S1x1x1.size a + S1x1x1.size a := by
  show i ∈ ((View.whole main_v3).slice (win1_3.rect t)).set ↔ _
  rw [View.set_slice_whole, Rect.mem_set_unit]
  exact Iff.rfl

/-- The sixty-four one-entry blocks cover the result array. -/
theorem cover3 (i : S64x1x1.Idx) : ∃ t : Fin cfg1.N, (cfg1.win 3).flush t = true ∧ i ∈ ((cfg1.win 3).blk t).view.set := by
  refine ⟨pointOf i, flush1_3 _, ?_⟩
  rw [mem_blk3]
  obtain ⟨-, -, -, -, -, -, e0, e1, e2⟩ := idx1 (pointOf i)
  have hp : (pointOf i).val = (i 0).val := rfl
  have h1 : (i 1).val < 1 := (i 1).isLt
  have h2 : (i 2).val < 1 := (i 2).isLt
  intro a
  match a with
  | ⟨0, _⟩ => show win1_3.index (pointOf i) (0 : Fin 3) * 1 ≤ (i 0).val ∧ (i 0).val < win1_3.index (pointOf i) (0 : Fin 3) * 1 + 1; omega
  | ⟨1, _⟩ => show win1_3.index (pointOf i) (1 : Fin 3) * 1 ≤ (i 1).val ∧ (i 1).val < win1_3.index (pointOf i) (1 : Fin 3) * 1 + 1; omega
  | ⟨2, _⟩ => show win1_3.index (pointOf i) (2 : Fin 3) * 1 ≤ (i 2).val ∧ (i 2).val < win1_3.index (pointOf i) (2 : Fin 3) * 1 + 1; omega

/-- After the second launch the result array holds the sixty-four block sums. -/
theorem sums_array (c : Dev nD) : (dat1 V c).arrAt 3 cfg1.N = sums V c :=
  (dat1 V c).arrAt_eq_of_cover 3 _ (fun t _ => flushed3 V c t) cover3

/-! ## The loaded rows at coordinates -/

theorem row_lt (t : Fin cfg1.N) (b : Fin 8) : t.val * 8 + b.val < 512 := by
  have ht : t.val < 64 := Nat.lt_of_lt_of_eq t.isLt N_1
  have hb := b.isLt
  omega

/-- Row `b` of the loaded rows of the cosine matrix is row `8 t + b` of the matrix. -/
theorem rows_apply (X : S512x512.Idx → Elt F .f32) (t : Fin cfg1.N) (b : Fin 8) (k : Fin 512) :
    View.ld X (rowsRect (grid1.coords t)) (ix2 b k) = X (ix2 (⟨t.val * 8 + b.val, row_lt t b⟩ : Fin 512) k) := by
  show X ((rowsRect (grid1.coords t)).idx (ix2 b k)) = _
  refine congrArg X (funext fun a => Fin.ext ?_)
  obtain ⟨o0, o1, -⟩ := off1 t
  match a with
  | ⟨0, _⟩ => show k1_off1 (grid1.coords t) (0 : Fin 2) + 1 * b.val = t.val * 8 + b.val; omega
  | ⟨1, _⟩ => show k1_off1 (grid1.coords t) (1 : Fin 2) + 1 * k.val = k.val; omega

/-- Row `b` of the loaded rows of the label column is row `8 t + b` of the column. -/
theorem col_apply (X : S512x1.Idx → Elt F .i32) (t : Fin cfg1.N) (b : Fin 8) (u : Fin 1) :
    View.ld X (colRect (grid1.coords t)) (ix2 b u) = X (ix2 (⟨t.val * 8 + b.val, row_lt t b⟩ : Fin 512) (0 : Fin 1)) := by
  show X ((colRect (grid1.coords t)).idx (ix2 b u)) = _
  refine congrArg X (funext fun a => Fin.ext ?_)
  obtain ⟨-, -, o0, o1, -⟩ := off1 t
  have hu : u.val = 0 := by omega
  match a with
  | ⟨0, _⟩ => show k1_off2 (grid1.coords t) (0 : Fin 2) + 1 * b.val = t.val * 8 + b.val; omega
  | ⟨1, _⟩ => show k1_off2 (grid1.coords t) (1 : Fin 2) + 1 * u.val = 0; omega

theorem coord_val (t : Fin cfg1.N) : ((grid1.coords t) 0).val = t.val := (off1 t).2.2.2.2

end Cert.KernelIdeal.BlockArray

end
-- ==== Proof.Chain.lean ====
/-
  The buffer contents through the program, boundary by boundary.

  Before the first launch the host stands the class labels up as a column [512, 1] and lays them out as a row [1, 512];
  the embeddings are as launched. The first launch leaves the cosine matrix of the embeddings; the label column and row
  pass through it untouched. The second launch leaves the sixty-four block sums of that matrix and those labels. The last
  host stretch adds the block sums up from zero.
-/
import proofs.«146865_j10325101379760_2_alg».proof.Proof.Gen.KernelIdeal.Frame
import proofs.«146865_j10325101379760_2_alg».proof.Proof.CosArray
import proofs.«146865_j10325101379760_2_alg».proof.Proof.BlockArray
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.Pipeline (Dat)
open Idealize.ShloMosaic.StableHlo
open Cert.KernelIdeal.CosArray Cert.KernelIdeal.BlockArray

variable {F : FTy → Type} [FloatOps F]
variable (m : (ℓ : Loc nD τ sig) → Buf (Elt F) ℓ) (ρ : Dev nD → PrngReg)

/-- The embeddings at the first launch's entry are the launch contents. -/
theorem entry_arg0 (c : Dev nD) : V1 m ρ c main_arg0 = m ((c : Thread nD τ).loc main_arg0) := by
  show StableHlo.after hostOps0 (W0 m ρ c) (Proc.devRef .tc main_arg0) = _
  after_results

/-- The label column at the first launch's entry. -/
theorem entry_col (c : Dev nD) :
    V1 m ρ c main_v0 = shapeCast S512x1 (m ((c : Thread nD τ).loc main_arg1)) shapeCasts_S512_S512x1 := by
  show StableHlo.after hostOps0 (W0 m ρ c) (Proc.devRef .tc main_v0) = _
  after_results
  rfl

/-- The label row at the first launch's entry. -/
theorem entry_row (c : Dev nD) :
    V1 m ρ c main_v1 = shapeCast S1x512 (m ((c : Thread nD τ).loc main_arg1)) shapeCasts_S512_S1x512 := by
  show StableHlo.after hostOps0 (W0 m ρ c) (Proc.devRef .tc main_v1) = _
  after_results
  rfl

/-- At the second launch's entry: the cosine matrix of the embeddings, -/
theorem cos_entry (c : Dev nD) : V2 m ρ c main_v2 = k0_pay1 (m ((c : Thread nD τ).loc main_arg0)) :=
  (W2_arr m ρ c 1).trans ((cos_array (V1 m ρ) c).trans (congrArg k0_pay1 (entry_arg0 m ρ c)))

/-- the label column, -/
theorem col_entry (c : Dev nD) :
    V2 m ρ c main_v0 = shapeCast S512x1 (m ((c : Thread nD τ).loc main_arg1)) shapeCasts_S512_S512x1 :=
  (W2_of_ne m ρ c main_v0 (by decide)).trans (entry_col m ρ c)

/-- and the label row. -/
theorem row_entry (c : Dev nD) :
    V2 m ρ c main_v1 = shapeCast S1x512 (m ((c : Thread nD τ).loc main_arg1)) shapeCasts_S512_S1x512 :=
  (W2_of_ne m ρ c main_v1 (by decide)).trans (entry_row m ρ c)

/-- After the second launch the result array of the launch holds the block sums. -/
theorem sums_exit (c : Dev nD) : W3 m ρ c (Proc.devRef .tc main_v3) = sums (V2 m ρ) c :=
  (W3_arr m ρ c 3).trans (sums_array (V2 m ρ) c)

/-- The program's result: the block sums added up from zero. -/
theorem result_eq (c : Dev nD) :
    W4 m ρ c (Proc.devRef .tc main_v4)
      = Host.reduceAdd (sums (V2 m ρ) c) (constant S_ .f32 0x00000000#32) reducesTo_S64x1x1_S_d0_1_2 h_S_ := by
  show StableHlo.after hostOps2 (W3 m ρ c) (Proc.devRef .tc main_v4) = _
  after_results
  rw [sums_exit]

end Cert.KernelIdeal.Chain

end
-- ==== Proof.Spec.lean ====
/-
  The masked hinge term of a triplet loss over a matrix of similarities.

  For an anchor row `i`, a candidate positive `j` and a candidate negative `k`, with `cij`, `cik` the similarities of
  the anchor to the two, `ci`, `cj`, `ck` the three class labels and `ri`, `rj`, `rk` the three positions as 32-bit
  words, the term is the hinge `max (cik - cij + 1) 0` when `j` has the anchor's class and comes after it, and `k` has
  another class and comes after it; otherwise it is zero. The comparisons are the machine's own on the words (equality
  of labels, signed order of positions), so the term is stated once and read the same way by every program that
  computes it.
-/
import Idealize.ShloMosaic.PureOps.Ideal
import Idealize.ShloMosaic.Lib.ValueIdx

noncomputable section

namespace Cert.Triplet

open Idealize.ShloMosaic

/-- `j` is a valid positive for the anchor: the same label, a later position. -/
def posBit (ci cj ri rj : BitVec 32) : BitVec 1 :=
  IntOp.andi (IntOp.cmpi .eq ci cj) (IntOp.cmpi .sgt rj ri)

/-- `k` is a valid negative for the anchor: another label, a later position. -/
def negBit (ci ck ri rk : BitVec 32) : BitVec 1 :=
  IntOp.andi (~~~ (IntOp.cmpi .eq ci ck)) (IntOp.cmpi .sgt rk ri)

/-- The hinge of the two similarities with margin one. -/
def hinge (cik cij : Ideal .f32) : Ideal .f32 :=
  FloatOps.maximumf (F := Ideal) (FloatOps.addf (F := Ideal) (FloatOps.subf (F := Ideal) cik cij)
    (FloatOps.ofBits (F := Ideal) .f32 0x3F800000#32)) (FloatOps.ofBits (F := Ideal) .f32 0x00000000#32)

/-- The masked hinge term of the triple (anchor, positive, negative). -/
def term (cik cij : Ideal .f32) (ci cj ck ri rj rk : BitVec 32) : Ideal .f32 :=
  Scalar.select (IntOp.andi (posBit ci cj ri rj) (negBit ci ck ri rk)) (hinge cik cij)
    (FloatOps.ofBits (F := Ideal) .f32 0x00000000#32)

end Cert.Triplet

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibGroupedLanes.lean ====
/-
  A matrix whose columns come in equal groups: an [a, n] array with n = b · c read as [a, b, c] — row p, group g,
  lane l sits at column g · c + l — and the operations a per-group statistic is built from, each read at an index
  given by coordinates:
  • the cast [a, n] → [a, b, c] and the cast back (`split_apply`, `merge_apply`);
  • the sum over the lanes of each group at the extended reals (`lanesum_apply`);
  • a per-group value [a, b] kept with a unit lane axis, [a, b, 1] (`keep_apply`), and spread back over the lanes,
    [a, b, 1] → [a, b, c] (`spread_apply`).
  Everything is stated for arbitrary extents.
-/
import Idealize.ShloMosaic.Lib.Pipeline.Value
import Idealize.ShloMosaic.Lib.ValueIdx
import Idealize.ShloMosaic.PureOps.Ideal.Laws

namespace Cert.Lib.GroupedLanes

open Idealize.ShloMosaic Idealize.ShloMosaic.ValueIdx

variable {α : Type} {a b c n : ℕ}

/-- An [a, n] array cast to [a, b, c] reads, at (p, g, l), the operand at (p, q) where q = g · c + l. -/
theorem split_apply (x : (⟨2, ![a, n]⟩ : Shape).Idx → α) (h : (⟨2, ![a, n]⟩ : Shape).ShapeCasts ⟨3, ![a, b, c]⟩)
    (hn : n = b * c) (p : Fin a) (g : Fin b) (l : Fin c) (q : Fin n) (hq : q.val = g.val * c + l.val) :
    shapeCast ⟨3, ![a, b, c]⟩ x h (ix3 p g l) = x (ix2 p q) :=
  shapeCast_apply x h _ _ (by
    rw [Shape.rowMajor_val_two, Shape.rowMajor_val_three]
    show p.val * n + q.val = (p.val * b + g.val) * c + l.val
    rw [hq, hn]; ring)

/-- An [a, b, c] array cast to [a, n] reads, at (p, q) with q = g · c + l, the operand at (p, g, l). -/
theorem merge_apply (x : (⟨3, ![a, b, c]⟩ : Shape).Idx → α) (h : (⟨3, ![a, b, c]⟩ : Shape).ShapeCasts ⟨2, ![a, n]⟩)
    (hn : n = b * c) (p : Fin a) (q : Fin n) (g : Fin b) (l : Fin c) (hq : q.val = g.val * c + l.val) :
    shapeCast ⟨2, ![a, n]⟩ x h (ix2 p q) = x (ix3 p g l) :=
  shapeCast_apply x h _ _ (by
    rw [Shape.rowMajor_val_two, Shape.rowMajor_val_three]
    show (p.val * b + g.val) * c + l.val = p.val * n + q.val
    rw [hq, hn]; ring)

/-- An [a, b] array cast to [a, b, 1] reads, at (p, g, u), the operand at (p, g), whatever the unit coordinate. -/
theorem keep_apply (x : (⟨2, ![a, b]⟩ : Shape).Idx → α) (h : (⟨2, ![a, b]⟩ : Shape).ShapeCasts ⟨3, ![a, b, 1]⟩)
    (p : Fin a) (g : Fin b) (u : Fin 1) : shapeCast ⟨3, ![a, b, 1]⟩ x h (ix3 p g u) = x (ix2 p g) :=
  shapeCast_apply x h _ _ (by
    have hu : u.val = 0 := by omega
    rw [Shape.rowMajor_val_two, Shape.rowMajor_val_three]
    show p.val * b + g.val = (p.val * b + g.val) * 1 + u.val
    rw [hu, Nat.mul_one, Nat.add_zero])

/-- An [a, b, 1] array broadcast to [a, b, c] reads, at (p, g, l), the operand at (p, g, 0). -/
theorem spread_apply (x : (⟨3, ![a, b, 1]⟩ : Shape).Idx → α) (h : (⟨3, ![a, b, 1]⟩ : Shape).Broadcasts ⟨3, ![a, b, c]⟩)
    (p : Fin a) (g : Fin b) (l : Fin c) :
    broadcastTo ⟨3, ![a, b, c]⟩ x h (ix3 p g l) = x (ix3 p g (0 : Fin 1)) := by
  refine broadcastTo_apply x h (ix3 p g l) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ => rfl

/-- The sum over the lanes: a `vector.multi_reduction <add>` over the last axis of an [a, b, c] array of extended
    reals reads, at (p, g), the sum over l of the operand at (p, g, l). (The accumulator's side condition is typed as a
    printed program's own proof of it is: the zero word equals itself.) -/
theorem lanesum_apply (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (p : Fin a) (g : Fin b) :
    multiReduction .add [2] ⟨2, ![a, b]⟩ src 0x00000000#32 h hφ hacc (ix2 p g) = ∑ l : Fin c, src (ix3 p g l) := by
  refine (Ideal.multiReduction_add_single src 0x00000000#32 h hφ hacc (ix2 p g)).trans ?_
  refine Finset.sum_congr rfl fun l _ => congrArg src ?_
  funext ax
  match ax with
  | ⟨0, _⟩ => rfl
  | ⟨1, _⟩ => rfl
  | ⟨2, _⟩ => rfl

end Cert.Lib.GroupedLanes
-- ==== Proof.BlockSum.lean ====
/-
  One block of the kernel's second launch. The body forms, for the block's eight anchors and all pairs (positive,
  negative), the hinge of the two similarities times the two masks as numbers, and adds over the negatives, then over
  the positives, then over the eight anchors, each sum started from zero. Read at its one entry, the stored value is the
  triple sum of the masked hinge terms.
-/
import proofs.«146865_j10325101379760_2_alg».proof.Proof.Gen.KernelIdeal.Skeleton
import proofs.«146865_j10325101379760_2_alg».proof.Proof.Spec
import proofs.«146865_j10325101379760_2_alg».proof.Proof.LibLayout
import proofs.«146865_j10325101379760_2_alg».proof.Proof.LibGroupedLanes

noncomputable section

namespace Cert.Triplet

open Idealize.ShloMosaic Idealize.ShloMosaic.ValueIdx

/-! ### Sums along the middle and the leading axis of a rank-3 array with unit trailing axes -/

/-- The sum over the middle axis of an [a, b, 1] array of extended reals, from the zero accumulator: at (p, u) it is
    the sum over g of the operand at (p, g, u). -/
theorem midsum_apply {a b : ℕ} (src : FVec Ideal ⟨3, ![a, b, 1]⟩ .f32)
    (h : (⟨3, ![a, b, 1]⟩ : Shape).Reduces [1] ⟨2, ![a, 1]⟩) (hφ : FKind.Formats .f32)
    (hacc : (0x00000000#32 : BitVec 32) = 0x00000000#32) (p : Fin a) (u : Fin 1) :
    multiReduction .add [1] ⟨2, ![a, 1]⟩ src 0x00000000#32 h hφ hacc (ix2 p u) = ∑ g : Fin b, src (ix3 p g u) := by
  refine (Ideal.multiReduction_add_single src 0x00000000#32 h hφ hacc (ix2 p u)).trans ?_
  refine Finset.sum_congr rfl fun g _ => congrArg src ?_
  funext ax
  match ax with
  | ⟨0, _⟩ => rfl
  | ⟨1, _⟩ => rfl
  | ⟨2, _⟩ => rfl

/-- The sum over the leading axis of an [a, 1, 1] array of extended reals, from the zero accumulator: at (u, w) it
    is the sum over p of the operand at (p, u, w). -/
theorem headsum_apply {a : ℕ} (src : FVec Ideal ⟨3, ![a, 1, 1]⟩ .f32)
    (h : (⟨3, ![a, 1, 1]⟩ : Shape).Reduces [0] ⟨2, ![1, 1]⟩) (hφ : FKind.Formats .f32)
    (hacc : (0x00000000#32 : BitVec 32) = 0x00000000#32) (u w : Fin 1) :
    multiReduction .add [0] ⟨2, ![1, 1]⟩ src 0x00000000#32 h hφ hacc (ix2 u w) = ∑ p : Fin a, src (ix3 p u w) := by
  refine (Ideal.multiReduction_add_single src 0x00000000#32 h hφ hacc (ix2 u w)).trans ?_
  refine Finset.sum_congr rfl fun p _ => congrArg src ?_
  funext ax
  match ax with
  | ⟨0, _⟩ => rfl
  | ⟨1, _⟩ => rfl
  | ⟨2, _⟩ => rfl

/-! ### A column broadcast along the rows -/

/-- An [a, 1] column broadcast to [a, b] reads, at (p, q), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ### Words -/

/-- The position of row b of block n, as the machine computes it on 32-bit words: n · 8 + b, modulo 2³². -/
theorem rowpos_word (n b : ℕ) :
    IntOp.addi (Scalar.muli (BitVec.ofNat 32 n) 8#32) (BitVec.ofNat 32 b) = BitVec.ofNat 32 (n * 8 + b) := by
  show BitVec.ofNat 32 n * 8#32 + BitVec.ofNat 32 b = BitVec.ofNat 32 (n * 8 + b)
  rw [show (8#32 : BitVec 32) = BitVec.ofNat 32 8 from rfl, ← BitVec.ofNat_mul, ← BitVec.ofNat_add]

/-- On one bit, exclusive-or with the bit 1 is the complement. -/
theorem xori_one (c : BitVec 1) : IntOp.xori c 1#1 = ~~~ c := by
  revert c; decide

/-- A value multiplied by two one-bit masks, each converted to a number (0 or 1), is the value where both bits are
    set and zero elsewhere. -/
theorem mask_mul (p n : BitVec 1) (T : Ideal .f32) :
    (T * FloatOps.sitofp (F := Ideal) .f32 (p.setWidth 32)) * FloatOps.sitofp (F := Ideal) .f32 (n.setWidth 32)
      = Scalar.select (IntOp.andi p n) T (FloatOps.ofBits (F := Ideal) .f32 0x00000000#32) := by
  rw [Ideal.ofBits_def, Ideal.ofBits_zero_f32]
  rcases (by decide : ∀ b : BitVec 1, b = 0#1 ∨ b = 1#1) p with rfl | rfl <;>
    rcases (by decide : ∀ b : BitVec 1, b = 0#1 ∨ b = 1#1) n with rfl | rfl
  · show (T * (((0 : ℤ) : ℝ) : EReal)) * (((0 : ℤ) : ℝ) : EReal) = 0
    simp
  · show (T * (((0 : ℤ) : ℝ) : EReal)) * (((1 : ℤ) : ℝ) : EReal) = 0
    simp
  · show (T * (((1 : ℤ) : ℝ) : EReal)) * (((0 : ℤ) : ℝ) : EReal) = 0
    simp
  · show (T * (((1 : ℤ) : ℝ) : EReal)) * (((1 : ℤ) : ℝ) : EReal) = T
    simp

/-! ### Integer operations read at an index -/

section IntAtIndex
variable {s : Shape} {w : ℕ}

/-- A bitwise and at an index is the and of the elements. -/
theorem andi_apply (x y : IVec s w) (i : s.Idx) : andi x y i = IntOp.andi (x i) (y i) := rfl
/-- A bitwise exclusive-or at an index is that of the elements. -/
theorem xori_apply (x y : IVec s w) (i : s.Idx) : xori x y i = IntOp.xori (x i) (y i) := rfl
/-- An integer sum at an index is the sum of the elements. -/
theorem addi_apply (x y : IVec s w) (i : s.Idx) : addi x y i = IntOp.addi (x i) (y i) := rfl
/-- An integer comparison at an index compares the elements. -/
theorem cmpi_apply (p : CmpIPredicate) (x y : IVec s w) (i : s.Idx) : cmpi p x y i = IntOp.cmpi p (x i) (y i) := rfl

end IntAtIndex

/-! ### A coordinate array read at an index -/

/-- The array of column numbers of an [a, b] array reads, at (p, q), the word of q. -/
theorem iota_cols_apply {a b : ℕ} (h : (⟨2, ![a, b]⟩ : Shape).Iotas .tc 32 [1]) (p : Fin a) (q : Fin b) :
    iota .tc ⟨2, ![a, b]⟩ 32 [1] h (ix2 p q) = BitVec.ofNat 32 q.val :=
  iota_single_apply .tc ⟨2, ![a, b]⟩ 32 1 h (ix2 p q)

/-- The array of row numbers of an [a, b] array reads, at (p, q), the word of p. -/
theorem iota_rows_apply {a b : ℕ} (h : (⟨2, ![a, b]⟩ : Shape).Iotas .tc 32 [0]) (p : Fin a) (q : Fin b) :
    iota .tc ⟨2, ![a, b]⟩ 32 [0] h (ix2 p q) = BitVec.ofNat 32 p.val :=
  iota_single_apply .tc ⟨2, ![a, b]⟩ 32 0 h (ix2 p q)

open Cert.KernelIdeal in
/-- One block of eight anchors: the kernel body's one stored value is the sum over the block's anchors, the positives
    and the negatives of the masked hinge terms. -/
theorem block_payload (i : Cert.KernelIdeal.grid1.Coords) (v3 : Vec Ideal S8x512 .f32) (v6 : Vec Ideal S8x1 .i32)
    (v8 : Vec Ideal S1x512 .i32) (y : S1x1x1.Idx) :
    Cert.KernelIdeal.Gen.k1_pay1 (F := Ideal) i v3 v6 v8 y
      = ∑ b : Fin 8, ∑ j : Fin 512, ∑ k : Fin 512,
          term (v3 (ix2 b k)) (v3 (ix2 b j)) (v6 (ix2 b (0 : Fin 1))) (v8 (ix2 (0 : Fin 1) j)) (v8 (ix2 (0 : Fin 1) k))
            (BitVec.ofNat 32 ((i 0).val * 8 + b.val)) (BitVec.ofNat 32 j.val) (BitVec.ofNat 32 k.val) := by
  obtain ⟨y0, y1, y2, rfl⟩ : ∃ (a b c : Fin 1), y = ix3 a b c := ⟨y 0, y 1, y 2, eq_ix3 y⟩
  unfold Cert.KernelIdeal.Gen.k1_pay1
  refine (Cert.Lib.GroupedLanes.keep_apply _ _ y0 y1 y2).trans ?_
  refine (headsum_apply _ _ _ _ y0 y1).trans ?_
  refine Finset.sum_congr rfl fun b _ => ?_
  refine (Cert.Lib.GroupedLanes.keep_apply _ _ b y0 y1).trans ?_
  refine (midsum_apply _ _ _ _ b y0).trans ?_
  refine Finset.sum_congr rfl fun j _ => ?_
  refine (Cert.Lib.GroupedLanes.keep_apply _ _ b j y0).trans ?_
  refine (Cert.Lib.GroupedLanes.lanesum_apply _ _ _ _ b j).trans ?_
  refine Finset.sum_congr rfl fun k _ => ?_
  simp only [mulf_apply, maximumf_apply, addf_apply, subf_apply, broadcast_apply, shapeCast_self,
    Cert.LibLayout.keep_apply, Cert.Lib.GroupedLanes.spread_apply, Cert.Lib.GroupedLanes.keep_apply,
    sitofp_apply, extui_apply, andi_apply, xori_apply, cmpi_apply, addi_apply, constantI_apply,
    broadcastTo_a1_ab_apply, broadcastTo_1b_ab_apply]
  rw [iota_cols_apply, iota_cols_apply, iota_rows_apply, rowpos_word, xori_one]
  exact mask_mul _ _ _

end Cert.Triplet

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«146865_j10325101379760_2_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.CosEq.lean ====
/-
  The two cosine matrices. Row-normalise the embeddings, each row divided by the larger of its Euclidean norm and a small
  floor; the cosine matrix is the matrix of inner products of the normalised rows. The kernel and the reference both
  compute it, by different operations; entry by entry they are the same sum of products.
-/
import proofs.«146865_j10325101379760_2_alg».proof.Proof.Gen.KernelIdeal.Skeleton
import proofs.«146865_j10325101379760_2_alg».proof.Proof.Gen.ReferenceIdeal.Read
import proofs.«146865_j10325101379760_2_alg».proof.Proof.LibPlainDot
import proofs.«146865_j10325101379760_2_alg».proof.Proof.LibHostDot
import proofs.«146865_j10325101379760_2_alg».proof.Proof.LibRowSum
import proofs.«146865_j10325101379760_2_alg».proof.Proof.LibLayout

noncomputable section

namespace Cert.Triplet

open Idealize.ShloMosaic Idealize.ShloMosaic.ValueIdx

/-!
  Both programs divide every row of the embeddings by its Euclidean norm (floored by the same small constant) and
  take all inner products of the normalised rows. Entry (p, q) of either cosine matrix is therefore
  `∑ c, en p c * en q c` with `en p c = x(p,c) / max (√(∑ d, x(p,d)²)) ε`: the kernel reaches it through a row
  reduction kept as a column, a broadcast, and a plain product with the transposed matrix into a zero accumulator;
  the reference through a row sum started from zero, two broadcasts, and a general dot with the transpose. The
  floor ε is the same word on both sides and is never evaluated.
-/

namespace CosEq

/-- Row p of the embeddings divided by its Euclidean norm, the norm kept away from zero by a small floor. -/
def en (x : FVec Ideal Cert.KernelIdeal.S512x512 .f32) (p k : Fin 512) : EReal :=
  Ideal.div (x (ix2 p k))
    (max (Ideal.sqrt (∑ c : Fin 512, x (ix2 p c) * x (ix2 p c))) (Ideal.ofBits .f32 0x322BCC77#32))

open Cert.KernelIdeal Cert.KernelIdeal.Gen in
/-- The kernel's normalised matrix: each entry divided by the floored square root of its row's sum of squares
    (the narrowing to a shorter format is the identity on ideal values). -/
def kn (x : FVec Ideal Cert.KernelIdeal.S512x512 .f32) : FVec Ideal Cert.KernelIdeal.S512x512 .bf16 :=
  truncf .bf16 (divf x (broadcastTo S512x512 (maximumf (sqrt (shapeCast S512x1
    (multiReduction (F := Ideal) .add [1] S512 (mulf x x) 0x00000000#32 reduces_S512x512_S512 (.inl rfl) rfl)
    shapeCasts_S512_S512x1)) (broadcast S512x1 (Scalar.ofBits (F := Ideal) .f32 0x322BCC77#32)))
    broadcasts_S512x1_S512x512)) bitsLt_bf16_f32

open Cert.KernelIdeal Cert.KernelIdeal.Gen in
/-- The kernel's cosine matrix is the plain product of the normalised matrix with its transpose, from zero. -/
theorem k0_eq (x : FVec Ideal Cert.KernelIdeal.S512x512 .f32) :
    k0_pay1 (F := Ideal) x = matmul (DotDims.plain 512 512 512) none (kn x)
      (transpose S512x512 [1, 0] (kn x) transposes_S512x512_p1_0_S512x512)
      (constant (F := Ideal) ⟨2, ![512, 512]⟩ .f32 0x00000000#32) := rfl

open Cert.KernelIdeal Cert.KernelIdeal.Gen in
/-- The kernel's normalised matrix at (p, k). -/
theorem kn_apply (x : FVec Ideal Cert.KernelIdeal.S512x512 .f32) (p k : Fin 512) :
    kn x (ix2 p k) = en x p k := by
  unfold kn
  rw [truncf_apply, divf_apply, Cert.HostDot.broadcastTo_a1_ab_apply, maximumf_apply]
  have h := Cert.Lib.RowSum.rowsum_column (mulf x x) reduces_S512x512_S512 (.inl rfl) rfl
    shapeCasts_S512_S512x1 p (0 : Fin 1)
  exact congrArg (fun t => Ideal.div (x (ix2 p k)) (max (Ideal.sqrt t) (Ideal.ofBits .f32 0x322BCC77#32))) h

open Cert.KernelIdeal Cert.KernelIdeal.Gen in
/-- The kernel's cosine matrix at (p, q): the inner product of the normalised rows p and q. -/
theorem k0_apply (x : FVec Ideal Cert.KernelIdeal.S512x512 .f32) (p q : Fin 512) :
    k0_pay1 (F := Ideal) x (ix2 p q) = ∑ c : Fin 512, en x p c * en x q c := by
  rw [k0_eq]
  refine (Cert.PlainDot.matmul_zero_plain_apply none (kn x)
    (transpose S512x512 [1, 0] (kn x) transposes_S512x512_p1_0_S512x512) p q).trans ?_
  refine Finset.sum_congr rfl fun c _ => ?_
  rw [kn_apply, transpose_apply [1, 0] (kn x) transposes_S512x512_p1_0_S512x512 (ix2 c q) (ix2 q c)
    (fun b => match b with | ⟨0, _⟩ => rfl | ⟨1, _⟩ => rfl), kn_apply]

open Cert.ReferenceIdeal Cert.ReferenceIdeal.Read in
/-- The reference's normalised matrix at (p, k). -/
theorem v5_apply (x : FVec Ideal Cert.KernelIdeal.S512x512 .f32) (p k : Fin 512) :
    val_main_v5 (F := Ideal) x (ix2 p k) = en x p k := by
  rw [val_main_v5_apply, val_main_v4_apply, val_main_v3_apply, val_main_v2_apply, val_main_v0_apply,
    val_main_v1_apply, val_main_cst_apply, val_main_call0_v1_apply, val_main_call0_cst_apply]
  have hs : ∑ c : Fin 512, val_main_call0_v0 (F := Ideal) x
      (idx_main_call0_v1 (idx_main_v3 (idx_main_v4 (ix2 p k))) c) = ∑ c : Fin 512, x (ix2 p c) * x (ix2 p c) :=
    Finset.sum_congr rfl fun c _ => by
      have e : idx_main_call0_v1 (idx_main_v3 (idx_main_v4 (ix2 p k))) c = ix2 p c :=
        funext fun a => Fin.ext (by match a with | ⟨0, _⟩ => rfl | ⟨1, _⟩ => rfl)
      rw [val_main_call0_v0_apply, e]
      rfl
  rw [hs]
  show Ideal.div _ (max (Ideal.sqrt (Ideal.ofBits .f32 0x00000000#32 + _)) _) = _
  rw [Ideal.ofBits_zero_f32, zero_add]
  rfl

end CosEq

open CosEq in
/-- The kernel's cosine matrix and the reference's are one function of the embeddings. -/
theorem cos_eq (x : FVec Ideal Cert.KernelIdeal.S512x512 .f32) :
    Cert.KernelIdeal.Gen.k0_pay1 (F := Ideal) x = Cert.ReferenceIdeal.Read.val_main_v7 (F := Ideal) x := by
  funext i
  obtain ⟨p, q, rfl⟩ : ∃ (p q : Fin 512), i = ix2 p q := ⟨i 0, i 1, eq_ix2 i⟩
  rw [k0_apply, Cert.ReferenceIdeal.Read.val_main_v7_apply]
  refine Finset.sum_congr rfl fun c _ => ?_
  have el : Cert.ReferenceIdeal.Read.lidx_main_v7 (ix2 p q) c = ix2 p c :=
    funext fun a => Fin.ext (by match a with | ⟨0, _⟩ => rfl | ⟨1, _⟩ => rfl)
  have er : Cert.ReferenceIdeal.Read.idx_main_v6 (Cert.ReferenceIdeal.Read.ridx_main_v7 (ix2 p q) c) = ix2 q c :=
    funext fun a => Fin.ext (by match a with | ⟨0, _⟩ => rfl | ⟨1, _⟩ => rfl)
  rw [Cert.ReferenceIdeal.Read.val_main_v6_apply, el, er, v5_apply, v5_apply]

end Cert.Triplet

end
-- ==== Proof.RefSum.lean ====
/-
  The reference's result. Its last operation adds up, from zero, the 512 × 512 × 512 array whose entry (i, j, k) is the
  masked hinge term of the triple; a sum over a rank-3 index set is the triple sum over the coordinates.
-/
import proofs.«146865_j10325101379760_2_alg».proof.Proof.Gen.ReferenceIdeal.Read
import proofs.«146865_j10325101379760_2_alg».proof.Proof.Spec

noncomputable section

namespace Cert.Triplet

open Idealize.ShloMosaic Idealize.ShloMosaic.ValueIdx

/-! ## A sum over a rank-3 index set as three nested sums -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The reference's summand at a triple of coordinates -/

open Cert.ReferenceIdeal Cert.ReferenceIdeal.Read in
/-- At the triple `(i, j, k)` the reference's masked array holds the masked hinge term of the triple: every broadcast
    reads its operand at the coordinates it keeps, so the pair mask of `(i, j)`, the pair mask of `(i, k)` and the two
    similarities `cos (i, k)`, `cos (i, j)` are what the select, the two conjunctions and the hinge are applied to. -/
theorem ref_term (x0 : (⟨S512x512, .f32⟩ : BufTy).Contents (Elt Ideal)) (x1 : (⟨S512, .i32⟩ : BufTy).Contents (Elt Ideal))
    (i j k : Fin 512) :
    val_main_v35 (F := Ideal) x0 x1 (ix3 i j k)
      = term (val_main_v7 (F := Ideal) x0 (ix2 i k)) (val_main_v7 (F := Ideal) x0 (ix2 i j))
          (x1 (ix1 i)) (x1 (ix1 j)) (x1 (ix1 k)) (BitVec.ofNat 32 i.val) (BitVec.ofNat 32 j.val) (BitVec.ofNat 32 k.val) := by
  simp only [val_main_v35_apply, val_main_v34_apply, val_main_v32_apply, val_main_v30_apply, val_main_v19_apply,
    val_main_v33_apply, val_main_v31_apply, val_main_v21_apply, val_main_v20_apply,
    val_main_v18_apply, val_main_v16_apply, val_main_v14_apply, val_main_v17_apply, val_main_v15_apply,
    val_main_v13_apply, val_main_v11_apply, val_main_v9_apply, val_main_v12_apply, val_main_v10_apply, val_main_v8_apply,
    val_main_v29_apply, val_main_v28_apply, val_main_v26_apply, val_main_v24_apply, val_main_v22_apply,
    val_main_v25_apply, val_main_v23_apply, val_main_v27_apply, val_main_cst_0_apply,
    val_main_call1_v0_apply, val_main_call1_cst_apply, val_main_call2_v1_apply, val_main_call2_v0_apply,
    val_main_cst_1_apply]
  generalize val_main_v7 (F := Ideal) x0 = C
  -- the composed index maps at `(i, j, k)`: each keeps the coordinates its broadcasts keep
  have e1 : idx_main_v14 (idx_main_v16 (idx_main_v30 (idx_main_v32 (ix3 i j k)))) = ix1 i :=
    funext fun a => Fin.ext (by match a with | ⟨0, _⟩ => rfl)
  have e2 : idx_main_v15 (idx_main_v17 (idx_main_v30 (idx_main_v32 (ix3 i j k)))) = ix1 j :=
    funext fun a => Fin.ext (by match a with | ⟨0, _⟩ => rfl)
  have e4 : idx_main_v15 (idx_main_v17 (idx_main_v31 (idx_main_v33 (ix3 i j k)))) = ix1 k :=
    funext fun a => Fin.ext (by match a with | ⟨0, _⟩ => rfl)
  have e5 : idx_main_v22 (idx_main_v24 (ix3 i j k)) = ix2 i k :=
    funext fun a => Fin.ext (by match a with | ⟨0, _⟩ => rfl | ⟨1, _⟩ => rfl)
  have e6 : idx_main_v23 (idx_main_v25 (ix3 i j k)) = ix2 i j :=
    funext fun a => Fin.ext (by match a with | ⟨0, _⟩ => rfl | ⟨1, _⟩ => rfl)
  rw [e1, e2, e4, e5, e6]
  rfl

open Cert.ReferenceIdeal in
/-- The reference's result is the sum over all triples of the masked hinge terms of its own cosine matrix. -/
theorem ref_sum (x0 : (⟨S512x512, .f32⟩ : BufTy).Contents (Elt Ideal)) (x1 : (⟨S512, .i32⟩ : BufTy).Contents (Elt Ideal)) (y : S_.Idx) :
    Cert.ReferenceIdeal.Read.val_main_v36 (F := Ideal) x0 x1 y
      = ∑ i : Fin 512, ∑ j : Fin 512, ∑ k : Fin 512,
          term (Cert.ReferenceIdeal.Read.val_main_v7 (F := Ideal) x0 (ix2 i k)) (Cert.ReferenceIdeal.Read.val_main_v7 (F := Ideal) x0 (ix2 i j))
            (x1 (ix1 i)) (x1 (ix1 j)) (x1 (ix1 k)) (BitVec.ofNat 32 i.val) (BitVec.ofNat 32 j.val) (BitVec.ofNat 32 k.val) := by
  -- the reduction over all three axes is the zero word plus the sum over every index
  rw [Cert.ReferenceIdeal.Read.val_main_v36_apply, Cert.ReferenceIdeal.Read.val_main_cst_2_apply, Ideal.ofBits_def,
    Ideal.ofBits_zero_f32, zero_add, sum_idx3]
  exact Finset.sum_congr rfl fun i _ => Finset.sum_congr rfl fun j _ => Finset.sum_congr rfl fun k _ =>
    ref_term x0 x1 i j k

end Cert.Triplet

end
-- ==== Proof.LibRealSums.lean ====
/-
  Finite sums of real numbers read in the extended reals.

  The extended reals are a commutative monoid under addition, so a finite sum may be regrouped and reordered at will, the
  infinities included; what fails at the infinities is distributivity, and with it the associativity of a product of three
  matrices. Here: the cast of a finite real sum is the sum of the casts; for REAL-valued factors the two ways of
  associating a triple product agree entry by entry; and a sum over `Fin (m + d)` whose last `d` terms vanish is the sum
  of its first `m` terms (a contraction padded with zeros, or cut by a mask, is the unpadded contraction).
-/
import Mathlib.Data.EReal.Operations
import Mathlib.Algebra.BigOperators.Fin
import Mathlib.Algebra.BigOperators.Ring.Finset

namespace Cert.RealSums

open Finset

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: `∑ₖ (∑ⱼ aⱼ bⱼₖ) cₖ = ∑ⱼ aⱼ (∑ₖ bⱼₖ cₖ)`, one row `a` of the left factor against one column `c`
    of the right one. -/
theorem assoc_row_col {J K : Type*} [Fintype J] [Fintype K] (a : J → ℝ) (b : J → K → ℝ) (c : K → ℝ) :
    (∑ k, (∑ j, a j * b j k) * c k) = ∑ j, a j * ∑ k, b j k * c k := by
  simp only [Finset.sum_mul, Finset.mul_sum]
  rw [Finset.sum_comm]
  exact Finset.sum_congr rfl fun j _ => Finset.sum_congr rfl fun k _ => by ring

/-- The same read in the extended reals, each factor the cast of a real: `(A·B)·C` and `A·(B·C)` have equal entries
    when `A`'s row, `B` and `C`'s column are finite. -/
theorem assoc_row_col_coe {J K : Type*} [Fintype J] [Fintype K] (a : J → ℝ) (b : J → K → ℝ) (c : K → ℝ) :
    (∑ k, (∑ j, (a j : EReal) * (b j k : EReal)) * (c k : EReal))
      = ∑ j, (a j : EReal) * ∑ k, (b j k : EReal) * (c k : EReal) := by
  simp only [← EReal.coe_mul, ← coe_sum]
  rw [assoc_row_col]

/-- A sum over `Fin (m + d)` whose last `d` terms vanish is the sum of its first `m` terms. -/
theorem sum_castAdd_of_tail_zero {M : Type*} [AddCommMonoid M] {m d : ℕ} (f : Fin (m + d) → M)
    (hz : ∀ i : Fin d, f (Fin.natAdd m i) = 0) : ∑ i, f i = ∑ i : Fin m, f (Fin.castAdd d i) := by
  rw [Fin.sum_univ_add, Finset.sum_eq_zero (fun i _ => hz i), add_zero]

/-- A sum over `Fin (m + d)` is the sum of its first `m` terms plus the sum of its last `d` (a contraction done as a head
    product and a tail product). -/
theorem sum_head_add_tail {M : Type*} [AddCommMonoid M] {m d : ℕ} (f : Fin (m + d) → M) :
    ∑ i, f i = (∑ i : Fin m, f (Fin.castAdd d i)) + ∑ i : Fin d, f (Fin.natAdd m i) :=
  Fin.sum_univ_add f

end Cert.RealSums
-- ==== Proof.LibBatchNormMoments.lean ====
/-
  A column's first two moments, collected tile by tile, and the two textbook forms of a variance.

  A batch normalisation needs, for every feature column, the mean `μ = (∑ᵣ xᵣ) / N` and the (biased) variance of the
  column's `N` entries. The variance can be taken centred, `(∑ᵣ (xᵣ - μ)²) / N`, or from the raw second moment,
  `(∑ᵣ xᵣ²) / N - μ²`. Over the reals the two agree: expanding the square gives `∑ xᵣ² - 2 μ ∑ xᵣ + N μ²`, and
  `∑ xᵣ = N μ`. Over the EXTENDED reals they do not (one infinite entry makes the raw form `⊤ - ⊤ = ⊥` and the
  centred form `⊤`), so the statement in the extended reals is for a column of finite entries, each the cast of a real.

  A sum over `g · b` rows may be collected as `g` partial sums of `b` consecutive rows each, in any commutative
  monoid, the extended reals included: this is how a column sum accumulated over row tiles is the whole column's sum.
-/
import Mathlib.Data.EReal.Operations
import Mathlib.Algebra.BigOperators.Fin
import Mathlib.Algebra.BigOperators.Ring.Finset
import Mathlib.Logic.Equiv.Fin.Basic
import Mathlib.Tactic.Ring
import Mathlib.Tactic.FieldSimp
import Idealize.ShloMosaic.PureOps.Ideal
import proofs.«146865_j10325101379760_2_alg».proof.Proof.LibRealSums

namespace Cert.Moments

open Finset Idealize.ShloMosaic

/-! ## Rows collected tile by tile -/

/-- Row `j` of tile `t`, among `g` tiles of `b` rows each. -/
def tileRow {g b : ℕ} (t : Fin g) (j : Fin b) : Fin (g * b) := finProdFinEquiv (t, j)

theorem tileRow_val {g b : ℕ} (t : Fin g) (j : Fin b) : (tileRow t j).val = j.val + b * t.val := rfl

/-- A sum over all `g · b` rows is the sum over the tiles of each tile's sum. -/
theorem sum_tiles {M : Type*} [AddCommMonoid M] {g b : ℕ} (F : Fin (g * b) → M) :
    ∑ r, F r = ∑ t : Fin g, ∑ j : Fin b, F (tileRow t j) := by
  rw [← Equiv.sum_comp finProdFinEquiv F, Fintype.sum_prod_type]
  rfl

/-! ## The variance, centred or from the raw second moment -/

/-- Over the reals: the raw second moment less the squared mean is the mean of the squared deviations. `N` is the
    number of entries, as a real. -/
theorem var_two_forms {ι : Type*} [Fintype ι] (f : ι → ℝ) (N : ℝ) (hN : N = (Fintype.card ι : ℝ)) (h0 : N ≠ 0) :
    (∑ i, f i * f i) / N - (∑ i, f i) / N * ((∑ i, f i) / N)
      = (∑ i, (f i - (∑ j, f j) / N) * (f i - (∑ j, f j) / N)) / N := by
  have expand : ∀ μ : ℝ, ∑ i, (f i - μ) * (f i - μ) = (∑ i, f i * f i) - 2 * μ * (∑ i, f i) + N * (μ * μ) := by
    intro μ
    have : ∀ i, (f i - μ) * (f i - μ) = f i * f i - 2 * μ * f i + μ * μ := fun i => by ring
    simp only [this, Finset.sum_add_distrib, Finset.sum_sub_distrib, ← Finset.mul_sum, Finset.sum_const,
      Finset.card_univ, nsmul_eq_mul, ← hN]
    ring
  rw [expand]
  field_simp
  ring

/-- The same in the extended reals, for a column whose entries are casts of reals, with the quotient the instance's own
    (`Ideal.div` by the cast of a nonzero real is the product with its reciprocal). -/
theorem var_two_forms_coe {ι : Type*} [Fintype ι] (f : ι → ℝ) (N : ℝ) (hN : N = (Fintype.card ι : ℝ)) (h0 : N ≠ 0) :
    Ideal.div (∑ i, (f i : EReal) * (f i : EReal)) (N : EReal)
        - Ideal.div (∑ i, (f i : EReal)) (N : EReal) * Ideal.div (∑ i, (f i : EReal)) (N : EReal)
      = Ideal.div (∑ i, ((f i : EReal) - Ideal.div (∑ j, (f j : EReal)) (N : EReal))
          * ((f i : EReal) - Ideal.div (∑ j, (f j : EReal)) (N : EReal))) (N : EReal) := by
  simp only [Ideal.div_coe h0, ← EReal.coe_mul, ← Cert.RealSums.coe_sum, ← EReal.coe_sub, one_div, ← div_eq_mul_inv]
  exact congrArg _ (var_two_forms f N hN h0)

/-- The mean of a column of finite entries is finite: it is the cast of the real mean. -/
theorem mean_coe {ι : Type*} [Fintype ι] (f : ι → ℝ) (N : ℝ) (h0 : N ≠ 0) :
    Ideal.div (∑ i, (f i : EReal)) (N : EReal) = (((∑ i, f i) / N : ℝ) : EReal) := by
  rw [Ideal.div_coe h0, ← Cert.RealSums.coe_sum, ← EReal.coe_mul]
  congr 1
  ring

/-- The centred variance of a column of finite entries is the cast of a NONNEGATIVE real. -/
theorem var_centred_coe {ι : Type*} [Fintype ι] (f : ι → ℝ) (N : ℝ) (h0 : 0 < N) :
    ∃ v : ℝ, 0 ≤ v ∧
      Ideal.div (∑ i, ((f i : EReal) - Ideal.div (∑ j, (f j : EReal)) (N : EReal))
          * ((f i : EReal) - Ideal.div (∑ j, (f j : EReal)) (N : EReal))) (N : EReal) = (v : EReal) := by
  refine ⟨(∑ i, (f i - (∑ j, f j) / N) * (f i - (∑ j, f j) / N)) / N,
    div_nonneg (Finset.sum_nonneg fun i _ => mul_self_nonneg _) h0.le, ?_⟩
  rw [mean_coe f N h0.ne']
  simp only [Ideal.div_coe h0.ne', ← EReal.coe_sub, ← EReal.coe_mul, ← Cert.RealSums.coe_sum]
  congr 1
  ring

end Cert.Moments
-- ==== Proof.Bridge.lean ====
/-
  The triplet loss, and the two programs as that one function of the embeddings and the class labels.

  With `C` the matrix of cosine similarities of the embeddings' rows, the loss is the sum, over all anchors `i`, candidate
  positives `j` and candidate negatives `k`, of the masked hinge term of the triple. The reference forms the whole
  512 × 512 × 512 array of terms and adds it up. The kernel adds, for each of sixty-four blocks of eight anchors, the terms of
  the block's anchors — over the negatives, then the positives, then the block's eight anchors — and the host adds the
  sixty-four block sums. Addition of extended reals is commutative and associative, infinities included, so the two
  groupings of the same terms have the same sum; the accumulators start at zero, which adds nothing. No other law is
  used, and nothing is asked of the inputs.
-/
import proofs.«146865_j10325101379760_2_alg».proof.Defs
import proofs.«146865_j10325101379760_2_alg».proof.Proof.Gen.Pre_finite_inputs
import proofs.«146865_j10325101379760_2_alg».proof.Proof.Gen.Kernel.Frame
import proofs.«146865_j10325101379760_2_alg».proof.Proof.Gen.ReferenceIdeal.Read
import proofs.«146865_j10325101379760_2_alg».proof.Proof.RunValue
import proofs.«146865_j10325101379760_2_alg».proof.Proof.Chain
import proofs.«146865_j10325101379760_2_alg».proof.Proof.BlockSum
import proofs.«146865_j10325101379760_2_alg».proof.Proof.CosEq
import proofs.«146865_j10325101379760_2_alg».proof.Proof.RefSum
import proofs.«146865_j10325101379760_2_alg».proof.Proof.LibLayout
import proofs.«146865_j10325101379760_2_alg».proof.Proof.LibBatchNormMoments
import Idealize.ShloMosaic.Lib.ValueLayout
import Idealize.ShloMosaic.PureOps.Ideal.Laws

set_option maxRecDepth 16384

noncomputable section

namespace Cert.Triplet

open Idealize.ShloMosaic Idealize.ShloMosaic.ValueIdx Idealize.ShloMosaic.TcCoe Idealize.SL.Sem

/-- The triplet loss of a matrix of similarities and a vector of class labels. -/
def loss (C : (⟨2, ![512, 512]⟩ : Shape).Idx → EReal) (cls : (⟨1, ![512]⟩ : Shape).Idx → BitVec 32) : EReal :=
  ∑ i : Fin 512, ∑ j : Fin 512, ∑ k : Fin 512,
    term (C (ix2 i k)) (C (ix2 i j)) (cls (ix1 i)) (cls (ix1 j)) (cls (ix1 k))
      (BitVec.ofNat 32 i.val) (BitVec.ofNat 32 j.val) (BitVec.ofNat 32 k.val)

/-- Equal similarities, labels and positions give equal terms. -/
theorem term_congr {a a' b b' : Ideal .f32} {c c' d d' e e' f f' g g' h h' : BitVec 32}
    (h1 : a = a') (h2 : b = b') (h3 : c = c') (h4 : d = d') (h5 : e = e') (h6 : f = f') (h7 : g = g') (h8 : h = h') :
    term a b c d e f g h = term a' b' c' d' e' f' g' h' := by
  subst h1 h2 h3 h4 h5 h6 h7 h8; rfl

/-- A sum over the 512 anchors collected as sixty-four blocks of eight consecutive anchors. -/
theorem sum_blocks {M : Type*} [AddCommMonoid M] (f : Fin 512 → M) (h : ∀ (t : Fin 64) (b : Fin 8), t.val * 8 + b.val < 512) :
    ∑ t : Fin 64, ∑ b : Fin 8, f ⟨t.val * 8 + b.val, h t b⟩ = ∑ i : Fin 512, f i := by
  have e := Cert.Moments.sum_tiles (g := 64) (b := 8) (fun r : Fin (64 * 8) => f ⟨r.val, r.isLt⟩)
  refine Eq.trans ?_ (e.symm.trans ?_)
  · refine Finset.sum_congr rfl fun t _ => Finset.sum_congr rfl fun b _ => congrArg f (Fin.ext ?_)
    show t.val * 8 + b.val = (Cert.Moments.tileRow t b).val
    rw [Cert.Moments.tileRow_val]; omega
  · rfl

section Kernel

open Cert.KernelIdeal Cert.KernelIdeal.Gen Cert.KernelIdeal.BlockArray

/-- The host's sum of the sixty-four block sums, from zero. -/
theorem total (S : S64x1x1.Idx → EReal) (y : S_.Idx) :
    Host.reduceAdd (F := Ideal) S (constant (F := Ideal) S_ .f32 0x00000000#32) reducesTo_S64x1x1_S_d0_1_2 h_S_ y
      = ∑ t : Fin 64, S (ix3 t (0 : Fin 1) (0 : Fin 1)) := by
  simp only [Host.reduceAdd, Ideal.hostReduceAdd_def]
  rw [Ideal.hostReduceAdd_total reducesTo_S64x1x1_S_d0_1_2 (fun b => b.elim0), sum_idx3]
  show Ideal.ofBits .f32 0x00000000#32 + _ = _
  rw [Ideal.ofBits_zero_f32, zero_add]
  refine Finset.sum_congr rfl fun t _ => ?_
  rw [Fin.sum_univ_one, Fin.sum_univ_one]

/-- One block's sum, from the arrays the second launch finds: the terms of the block's eight anchors. -/
theorem block_at (V : (c : Dev nD) → (b : Ref sig .tc) → Buf (Elt Ideal) ((c : Thread nD τ).loc b)) (c : Dev nD) (t : Fin cfg1.N)
    (C : S512x512.Idx → EReal) (cls : S512.Idx → BitVec 32) (hC : V c main_v2 = C)
    (h0 : V c main_v0 = shapeCast S512x1 cls shapeCasts_S512_S512x1)
    (h1 : V c main_v1 = shapeCast S1x512 cls shapeCasts_S512_S1x512) :
    blockVal V c t (ix3 (0 : Fin 1) (0 : Fin 1) (0 : Fin 1))
      = ∑ b : Fin 8, ∑ j : Fin 512, ∑ k : Fin 512,
          term (C (ix2 (⟨t.val * 8 + b.val, row_lt t b⟩ : Fin 512) k)) (C (ix2 (⟨t.val * 8 + b.val, row_lt t b⟩ : Fin 512) j))
            (cls (ix1 (⟨t.val * 8 + b.val, row_lt t b⟩ : Fin 512))) (cls (ix1 j)) (cls (ix1 k))
            (BitVec.ofNat 32 (t.val * 8 + b.val)) (BitVec.ofNat 32 j.val) (BitVec.ofNat 32 k.val) := by
  unfold blockVal
  rw [hC, h0, h1]
  refine (block_payload (grid1.coords t)
    (View.ld (Val := Elt Ideal) (S := S512x512) (e' := .f32) C (rowsRect (grid1.coords t)))
    (View.ld (Val := Elt Ideal) (S := S512x1) (e' := .i32) (shapeCast S512x1 cls shapeCasts_S512_S512x1) (colRect (grid1.coords t)))
    (shapeCast S1x512 cls shapeCasts_S512_S1x512) _).trans ?_
  refine Finset.sum_congr rfl fun b _ => Finset.sum_congr rfl fun j _ => Finset.sum_congr rfl fun k _ => ?_
  exact term_congr (rows_apply (F := Ideal) C t b k) (rows_apply (F := Ideal) C t b j)
    ((col_apply (F := Ideal) _ t b (0 : Fin 1)).trans
      (Cert.LibLayout.shapeCast_a_a1_apply cls shapeCasts_S512_S512x1 _ (0 : Fin 1)))
    (shapeCast_a_1a_apply cls shapeCasts_S512_S1x512 (0 : Fin 1) j)
    (shapeCast_a_1a_apply cls shapeCasts_S512_S1x512 (0 : Fin 1) k)
    (congrArg (fun n => BitVec.ofNat 32 (n * 8 + b.val)) (coord_val t)) rfl rfl

/-- The kernel's result is the loss of the cosine matrix its first launch computes. -/
theorem kernel_loss (m : (ℓ : Loc nD τ sig) → Buf (Elt Ideal) ℓ) (ρ : Dev nD → PrngReg) (c : Dev nD) :
    W4 m ρ c (Proc.devRef .tc main_v4)
      = fun _ => loss (k0_pay1 (F := Ideal) (m ((c : Thread nD τ).loc main_arg0))) (m ((c : Thread nD τ).loc main_arg1)) := by
  rw [Cert.KernelIdeal.Chain.result_eq]
  funext y
  rw [total]
  unfold sums loss
  rw [← sum_blocks _ (fun t b => by have := t.isLt; have := b.isLt; omega)]
  refine Finset.sum_congr rfl fun t _ => ?_
  exact block_at (V2 m ρ) c (pointOf (ix3 t (0 : Fin 1) (0 : Fin 1))) _ _
    (Cert.KernelIdeal.Chain.cos_entry m ρ c) (Cert.KernelIdeal.Chain.col_entry m ρ c) (Cert.KernelIdeal.Chain.row_entry m ρ c)

end Kernel

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the loss of the reference's cosine matrix: the kernel's own cosine matrix is that
    matrix, and its sixty-four block sums add up to the reference's one sum. -/
theorem algebraic : Cert.algebraic_KernelIdeal_ReferenceIdeal := by
  intro m ρ m' ρ' _ hagree
  refine ⟨fun c => fun _ => loss (Cert.ReferenceIdeal.Read.val_main_v7 (F := Ideal)
      (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2.1, (h c).2.2⟩)
      (Cert.KernelIdeal.RunValue.run_value (F := Ideal) m ρ)
    rw [kernel_loss, cos_eq]
  · refine (θ_run Cert.ReferenceIdeal.defs _ _).mono (fun r h c => ⟨(h c).1.trans ?_, (h c).2.1, (h c).2.2⟩)
      (Cert.ReferenceIdeal.Value.run (F := Ideal) m' ρ')
    rw [Cert.ReferenceIdeal.Read.val_main_v36_eq, (hagree c).1, (hagree c).2]
    funext y
    exact ref_sum _ _ y

end Cert.Triplet

end
-- ==== Proof.lean ====
/-
  A triplet loss with cosine similarities: the kernel against its reference, over the extended reals.

  Both programs take 512 embeddings of 512 coordinates and 512 class labels. Each row of the embeddings is divided by its
  Euclidean norm (kept above a small floor, the same constant in both programs), and `C` is the matrix of inner products
  of the normalised rows. For an anchor `i`, a positive `j` (same label, later position) and a negative `k` (another
  label, later position) the term is the hinge `max (C i k - C i j + 1) 0`; every other triple contributes zero. The
  result is the sum of the terms over all triples.

  The reference builds the 512 × 512 × 512 array of terms with a select on the conjunction of the two masks and adds it
  up. The kernel computes `C` in a first launch; a second launch walks sixty-four blocks of eight anchors, multiplies
  each hinge by the two masks as numbers 0 or 1 — on the extended reals `x · 1 = x` and `x · 0 = 0` for every `x`, so the
  product is the select — and sums over negatives, positives and the block's anchors; the host adds the sixty-four block
  sums. The two results are two groupings of one family of terms under a commutative, associative addition.

  The frames of the kernel programs are the generated ones; the reference's frame is its generated run with the result
  dropped; the idealization rewrote nothing, so nothing is owed for it. The modules: Spec (the term), CosEq (the two cosine
  matrices are one function), BlockSum (one block's stored value as a sum of terms), RefSum (the reference's result as
  the sum of terms), RunValue, CosArray, BlockArray, Chain (the kernel program's run, and the contents of its buffers from
  launch to result), Bridge (the loss, the regrouping, and the claims).
-/
import proofs.«146865_j10325101379760_2_alg».proof.Defs
import proofs.«146865_j10325101379760_2_alg».proof.Proof.Gen.Kernel
import proofs.«146865_j10325101379760_2_alg».proof.Proof.Gen.Kernel.Skeleton
import proofs.«146865_j10325101379760_2_alg».proof.Proof.Gen.Kernel.Launch
import proofs.«146865_j10325101379760_2_alg».proof.Proof.Gen.Kernel.Points
import proofs.«146865_j10325101379760_2_alg».proof.Proof.Gen.Kernel.Frame
import proofs.«146865_j10325101379760_2_alg».proof.Proof.Gen.KernelIdeal
import proofs.«146865_j10325101379760_2_alg».proof.Proof.Gen.KernelIdeal.Skeleton
import proofs.«146865_j10325101379760_2_alg».proof.Proof.Gen.KernelIdeal.Launch
import proofs.«146865_j10325101379760_2_alg».proof.Proof.Gen.KernelIdeal.Points
import proofs.«146865_j10325101379760_2_alg».proof.Proof.Gen.KernelIdeal.Frame
import proofs.«146865_j10325101379760_2_alg».proof.Proof.Gen.ReferenceIdeal
import proofs.«146865_j10325101379760_2_alg».proof.Proof.Gen.ReferenceIdeal.Read
import proofs.«146865_j10325101379760_2_alg».proof.Proof.Gen.Pre_finite_inputs
import proofs.«146865_j10325101379760_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Triplet.frame_k, Cert.Triplet.frame_ki, Cert.Triplet.frame_ri, Cert.Triplet.preserves, Cert.Triplet.algebraic⟩

end Cert.Proof

end
